-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDenseSpec.lean ====
/-
  Whole-array functions of a row-tiled multilayer perceptron on the extended reals, entry by entry, for any extents:
  an affine map x·W + b, the product alone, the upper and lower rows of a weight matrix, the same with the contraction split over two inputs (x·Wa + y·Wb + b), the maximum with
  zero, a batch-norm epilogue max((h + b)·s + β, 0) with per-column vectors, and the logistic function of every
  entry. Every product is a plain finite sum over the contracted coordinate; the biases are vectors read at ix1.
-/
import Idealize.ShloMosaic.PureOps.Ideal
import Idealize.ShloMosaic.Lib.ValueIdx

noncomputable section

namespace Cert.LibDenseSpec

open Idealize.ShloMosaic Idealize.ShloMosaic.ValueIdx

variable {N K K' M : Nat}

/-- The affine map: entry (p, q) is Σ_k x(p,k)·w(k,q) + b(q). -/
def dense (x : FVec Ideal ⟨2, ![N, K]⟩ .f32) (w : FVec Ideal ⟨2, ![K, M]⟩ .f32) (b : FVec Ideal ⟨1, ![M]⟩ .f32) :
    FVec Ideal ⟨2, ![N, M]⟩ .f32 :=
  fun j => (∑ k : Fin K, x (ix2 (j 0) k) * w (ix2 k (j 1))) + b (ix1 (j 1))

/-- The product alone: entry (p, q) is Σ_k x(p,k)·w(k,q). -/
def prod (x : FVec Ideal ⟨2, ![N, K]⟩ .f32) (w : FVec Ideal ⟨2, ![K, M]⟩ .f32) : FVec Ideal ⟨2, ![N, M]⟩ .f32 :=
  fun j => ∑ k : Fin K, x (ix2 (j 0) k) * w (ix2 k (j 1))

/-- Two inputs contracted against two weight matrices, summed, plus the bias:
    entry (p, q) is (Σ_k x(p,k)·wa(k,q) + Σ_k y(p,k)·wb(k,q)) + b(q). -/
def dense2 (x : FVec Ideal ⟨2, ![N, K]⟩ .f32) (y : FVec Ideal ⟨2, ![N, K']⟩ .f32) (wa : FVec Ideal ⟨2, ![K, M]⟩ .f32)
    (wb : FVec Ideal ⟨2, ![K', M]⟩ .f32) (b : FVec Ideal ⟨1, ![M]⟩ .f32) : FVec Ideal ⟨2, ![N, M]⟩ .f32 :=
  fun j => ((∑ k : Fin K, x (ix2 (j 0) k) * wa (ix2 k (j 1))) + ∑ k : Fin K', y (ix2 (j 0) k) * wb (ix2 k (j 1))) + b (ix1 (j 1))

/-- The maximum of every entry with zero. -/
def relu (a : FVec Ideal ⟨2, ![N, M]⟩ .f32) : FVec Ideal ⟨2, ![N, M]⟩ .f32 := fun j => max (a j) 0

/-- The batch-norm epilogue: entry (p, q) is max((h(p,q) + b(q))·s(q) + β(q), 0). -/
def bnRelu (h : FVec Ideal ⟨2, ![N, M]⟩ .f32) (b s β : FVec Ideal ⟨1, ![M]⟩ .f32) : FVec Ideal ⟨2, ![N, M]⟩ .f32 :=
  fun j => max ((h j + b (ix1 (j 1))) * s (ix1 (j 1)) + β (ix1 (j 1))) 0

/-- The first A rows of a matrix of T rows. -/
def topRows {A T : Nat} (h : A ≤ T) (W : FVec Ideal ⟨2, ![T, M]⟩ .f32) : FVec Ideal ⟨2, ![A, M]⟩ .f32 :=
  fun j => W (ix2 ⟨(j 0).val, lt_of_lt_of_le (j 0).isLt h⟩ (j 1))

/-- The B rows of a matrix of T = A + B rows that follow its first A rows. -/
def botRows {B T : Nat} (A : Nat) (h : A + B = T) (W : FVec Ideal ⟨2, ![T, M]⟩ .f32) : FVec Ideal ⟨2, ![B, M]⟩ .f32 :=
  fun j => W (ix2 ⟨A + (j 0).val, by have hj : (j 0).val < B := (j 0).isLt; omega⟩ (j 1))

/-- The logistic function of every entry. -/
def logistic (a : FVec Ideal ⟨2, ![N, M]⟩ .f32) : FVec Ideal ⟨2, ![N, M]⟩ .f32 := fun j => Ideal.logistic (a j)

theorem dense_apply (x : FVec Ideal ⟨2, ![N, K]⟩ .f32) (w : FVec Ideal ⟨2, ![K, M]⟩ .f32) (b : FVec Ideal ⟨1, ![M]⟩ .f32)
    (p : Fin N) (q : Fin M) : dense x w b (ix2 p q) = (∑ k : Fin K, x (ix2 p k) * w (ix2 k q)) + b (ix1 q) := rfl

theorem prod_apply (x : FVec Ideal ⟨2, ![N, K]⟩ .f32) (w : FVec Ideal ⟨2, ![K, M]⟩ .f32) (p : Fin N) (q : Fin M) :
    prod x w (ix2 p q) = ∑ k : Fin K, x (ix2 p k) * w (ix2 k q) := rfl

theorem dense2_apply (x : FVec Ideal ⟨2, ![N, K]⟩ .f32) (y : FVec Ideal ⟨2, ![N, K']⟩ .f32) (wa : FVec Ideal ⟨2, ![K, M]⟩ .f32)
    (wb : FVec Ideal ⟨2, ![K', M]⟩ .f32) (b : FVec Ideal ⟨1, ![M]⟩ .f32) (p : Fin N) (q : Fin M) :
    dense2 x y wa wb b (ix2 p q)
      = ((∑ k : Fin K, x (ix2 p k) * wa (ix2 k q)) + ∑ k : Fin K', y (ix2 p k) * wb (ix2 k q)) + b (ix1 q) := rfl

theorem topRows_apply {A T : Nat} (h : A ≤ T) (W : FVec Ideal ⟨2, ![T, M]⟩ .f32) (p : Fin A) (q : Fin M) :
    topRows h W (ix2 p q) = W (ix2 ⟨p.val, lt_of_lt_of_le p.isLt h⟩ q) := rfl

theorem botRows_apply {B T : Nat} (A : Nat) (h : A + B = T) (W : FVec Ideal ⟨2, ![T, M]⟩ .f32) (p : Fin B) (q : Fin M) :
    botRows A h W (ix2 p q) = W (ix2 ⟨A + p.val, by have hp : p.val < B := p.isLt; omega⟩ q) := rfl

/-- Against a bias that is zero in every entry the affine map is the product alone. -/
theorem dense_zero (x : FVec Ideal ⟨2, ![N, K]⟩ .f32) (w : FVec Ideal ⟨2, ![K, M]⟩ .f32) (b : FVec Ideal ⟨1, ![M]⟩ .f32)
    (hb : ∀ i, b i = 0) : dense x w b = prod x w := by
  funext j; unfold dense prod; rw [hb, add_zero]

theorem relu_apply (a : FVec Ideal ⟨2, ![N, M]⟩ .f32) (j) : relu a j = max (a j) 0 := rfl

theorem bnRelu_apply (h : FVec Ideal ⟨2, ![N, M]⟩ .f32) (b s β : FVec Ideal ⟨1, ![M]⟩ .f32) (p : Fin N) (q : Fin M) :
    bnRelu h b s β (ix2 p q) = max ((h (ix2 p q) + b (ix1 q)) * s (ix1 q) + β (ix1 q)) 0 := rfl

theorem logistic_apply (a : FVec Ideal ⟨2, ![N, M]⟩ .f32) (j) : logistic a j = Ideal.logistic (a j) := rfl

end Cert.LibDenseSpec

end
-- ==== Proof.SageSpec.lean ====
/-
  The specification: two layers of a mean-aggregating graph convolution over 100000 nodes with 128 features, as ONE
  whole-array function of the eight argument arrays, on the extended reals.

  A layer takes node features h and the edge list. Row 0 of the edge list holds each edge's source, row 1 its
  destination. The neighbour mean of h sums, into each destination's row, the source rows of the edges that arrive there
  and divides the row by max(in-degree, 1). The layer's output at (p, q) is
      (Σ_k mean(p,k)·Wl(q,k) + Σ_k h(p,k)·Wr(q,k)) + b(q),
  the weight matrices entering transposed. The first layer is followed by the maximum with zero.

  The neighbour mean is stated once, as the composition of host operations both programs apply (a gather of rows, two
  scatter-additions, a division): nothing below opens it, so the only mathematics of the certificate is the order of the
  three summands of a layer's entry.
-/
import proofs.«104796_j69793218560134_1_alg».proof.KernelIdeal
import proofs.«104796_j69793218560134_1_alg».proof.Proof.LibDenseSpec

noncomputable section

namespace Cert.Sage

open Idealize.ShloMosaic Idealize.ShloMosaic.ValueIdx Cert.KernelIdeal Cert.KernelIdeal.Facts₀ Cert.LibDenseSpec

variable [Cert.KernelIdeal.Facts₀]

/-- An array of 32-bit integers, and one of floats read as extended reals. -/
abbrev IArr (S : Shape) := IVec S 32
abbrev FArr (S : Shape) := FVec Ideal S .f32

/-- Row 0 of the edge list: every edge's source node. -/
def sources (ei : IArr S2x1600000) : IArr S1600000 :=
  shapeCast _ (extractStridedSlice S1x1600000 ![0, 0] ei slices_S2x1600000_S1x1600000_0_0) shapeCasts_S1x1600000_S1600000

/-- Row 1 of the edge list: every edge's destination node. -/
def dests (ei : IArr S2x1600000) : IArr S1600000 :=
  shapeCast _ (extractStridedSlice S1x1600000 ![1, 0] ei slices_S2x1600000_S1x1600000_1_0) shapeCasts_S1x1600000_S1600000

/-- A negative index counts from the end: s + 100000 where s < 0, else s. -/
def wrap (s : IArr S1600000) : IArr S1600000 :=
  select (cmpi .slt s (broadcastInDim S1600000 ![] bcast_S_S1600000 (constantI S_ 32 0#32)))
    (addi s (broadcastInDim S1600000 ![] bcast_S_S1600000 (constantI S_ 32 100000#32))) s

/-- The in-degree of every node: one added at its destination for every edge, from zero. -/
def inDegree (ei : IArr S2x1600000) : FArr S100000 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dests ei))
    (broadcastInDim S1600000 ![] bcast_S_S1600000 (constant (F := Ideal) S_ .f32 0x3F800000#32))

/-- The divisor of every entry of a node's row: max(in-degree, 1). -/
def divisor (deg : FArr S100000) : FArr S100000x128 :=
  broadcastInDim S100000x128 ![0, 1] bcast_S100000x1_S100000x128_0_1
    (broadcastInDim S100000x1 ![0] bcast_S100000_S100000x1_0
      (maximumf deg (broadcastInDim S100000 ![] bcast_S_S100000 (constant (F := Ideal) S_ .f32 0x3F800000#32))))

/-- The sum, into each destination's row, of the source rows of h over the edges, from zero. -/
def neighbourSum (h : FArr S100000x128) (ei : IArr S2x1600000) : FArr S100000x128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dests ei))
    (Host.gather gather_S100000x128_S1600000x1_S1600000x128_1_0_n_n_0_1_1128 h
      (broadcastInDim S1600000x1 ![0] bcast_S1600000_S1600000x1_0 (wrap (sources ei))))

/-- The neighbour mean with the in-degrees given: the neighbour sum over the divisor. -/
def meanWith (deg : FArr S100000) (h : FArr S100000x128) (ei : IArr S2x1600000) : FArr S100000x128 :=
  Host.divf (F := Ideal) (φ := .f32) (neighbourSum h ei) (divisor deg)

/-- The neighbour mean of h. -/
def neighbourMean (h : FArr S100000x128) (ei : IArr S2x1600000) : FArr S100000x128 := meanWith (inDegree ei) h ei

/-- A weight matrix transposed. -/
def tr (w : FArr S128x128) : FArr S128x128 := transpose S128x128 [1, 0] w transposes_S128x128_S128x128_1_0

/-- A 1×128 array read as a vector of 128 entries. -/
def rowVec (r : FArr S1x128) : FArr S128 := fun q => r (ix2 (⟨0, Nat.one_pos⟩ : Fin 1) (⟨(q 0).val, (q 0).isLt⟩ : Fin 128))

/-- A layer's output before any maximum, from the mean a, the features h, the two weight matrices AS CONTRACTED (already
    transposed) and the bias: entry (p, q) is (Σ_k a(p,k)·wl(k,q) + Σ_k h(p,k)·wr(k,q)) + b(q). -/
def combine (a h : FArr S100000x128) (wl wr : FArr S128x128) (b : FArr S128) : FArr S100000x128 :=
  dense2 (N := 100000) (K := 128) (K' := 128) (M := 128) a h wl wr b

/-- The first layer: the maximum of every entry with zero. -/
def layer1 (x : FArr S100000x128) (ei : IArr S2x1600000) (wl : FArr S128x128) (b : FArr S128) (wr : FArr S128x128) :
    FArr S100000x128 :=
  relu (N := 100000) (M := 128) (combine (neighbourMean x ei) x (tr wl) (tr wr) b)

/-- The second layer: no maximum. -/
def layer2 (h : FArr S100000x128) (ei : IArr S2x1600000) (wl : FArr S128x128) (b : FArr S128) (wr : FArr S128x128) :
    FArr S100000x128 :=
  combine (neighbourMean h ei) h (tr wl) (tr wr) b

/-- The whole network, of the arguments in the programs' order. -/
def sage (x : FArr S100000x128) (ei : IArr S2x1600000) (w1l : FArr S128x128) (b1 : FArr S128) (w1r w2l : FArr S128x128)
    (b2 : FArr S128) (w2r : FArr S128x128) : FArr S100000x128 :=
  layer2 (layer1 x ei w1l b1 w1r) ei w2l b2 w2r

end Cert.Sage

end
-- ==== Proof.KernelRun.lean ====
/-
  The idealized program's run with its result named. The run of @main is four segments: the host operations before the
  first launch, the first launch, the host operations between the launches, the second launch. The buffer contents at
  each boundary are a fold from the launch memory (W0 … W4 of the frame module); every weakly fair execution ends with
  every unscoped buffer at the last boundary's contents W4. The frame claim keeps of this only that the arguments end
  unchanged; here the post also keeps the result buffer, at W4's contents of it.
-/
import proofs.«104796_j69793218560134_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents of it and the argument arrays as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.HostStages.lean ====
/-
  The contents of the buffers the two launches read, as functions of the argument arrays.

  The program's run is: host operations, the first launch, host operations, the second launch. The first stretch computes,
  from the arguments, the edge list's two rows, the in-degrees, the neighbour mean of the input features, the transposed
  weight matrices of the first layer and its bias as a row. The second stretch computes, from the first launch's output h and
  from values of the first stretch that the launch does not touch (the edge rows, the in-degrees, the arguments), the
  neighbour mean of h, the transposed weight matrices of the second layer and its bias as a row. Each lemma below reads one
  such buffer: the fold of a stretch's operations at that buffer is the operations' composed term, and that term is the
  specification's function by unfolding both.
-/
import proofs.«104796_j69793218560134_1_alg».proof.Proof.Gen.KernelIdeal.Frame
import proofs.«104796_j69793218560134_1_alg».proof.Proof.SageSpec
import Idealize.ShloMosaic.Lib.StableHlo.Run
import Idealize.ShloMosaic.Lib.ValueLayout
import Idealize.ShloMosaic.Lib.ValueIdx

noncomputable section

namespace Cert.KernelIdeal.HostFold

open Idealize.ShloMosaic Idealize.ShloMosaic.TcCoe Idealize.ShloMosaic.ValueIdx Idealize.SL.Sem
open Cert.KernelIdeal Cert.KernelIdeal.Gen Idealize.ShloMosaic.StableHlo

/-- A vector cast to a one-row array and read back as a vector is the vector. -/
theorem rowVec_cast (x : Cert.Sage.FArr S128) (h : S128.ShapeCasts S1x128) :
    Cert.Sage.rowVec (shapeCast S1x128 x h) = x := by
  funext q
  unfold Cert.Sage.rowVec
  refine (shapeCast_a_1a_apply (a := 128) x h ⟨0, Nat.one_pos⟩ ⟨(q 0).val, (q 0).isLt⟩).trans (congrArg x ?_)
  funext a
  match a with
  | ⟨0, _⟩ => rfl

variable (m : (ℓ : Loc nD τ sig) → Buf (Elt Ideal) ℓ) (ρ : Dev nD → PrngReg)

/-! ## Before the first launch -/

theorem first_features (c : Dev nD) : V1 m ρ c main_arg0 = m ((c.tc : Thread nD τ).loc main_arg0) := by
  show StableHlo.after hostOps0 (W0 m ρ c) (Proc.devRef .tc main_arg0) = _
  after_results_simp

theorem first_sources (c : Dev nD) :
    W1 m ρ c (Proc.devRef .tc main_v1) = Cert.Sage.sources (m ((c.tc : Thread nD τ).loc main_arg1)) := by
  show StableHlo.after hostOps0 (W0 m ρ c) (Proc.devRef .tc main_v1) = _
  after_results_simp
  rfl

theorem first_dests (c : Dev nD) :
    W1 m ρ c (Proc.devRef .tc main_v3) = Cert.Sage.dests (m ((c.tc : Thread nD τ).loc main_arg1)) := by
  show StableHlo.after hostOps0 (W0 m ρ c) (Proc.devRef .tc main_v3) = _
  after_results_simp
  rfl

theorem first_inDegree (c : Dev nD) :
    W1 m ρ c (Proc.devRef .tc main_v7) = Cert.Sage.inDegree (m ((c.tc : Thread nD τ).loc main_arg1)) := by
  show StableHlo.after hostOps0 (W0 m ρ c) (Proc.devRef .tc main_v7) = _
  after_results_simp
  rfl

theorem first_mean (c : Dev nD) :
    V1 m ρ c main_v22
      = Cert.Sage.neighbourMean (m ((c.tc : Thread nD τ).loc main_arg0)) (m ((c.tc : Thread nD τ).loc main_arg1)) := by
  show StableHlo.after hostOps0 (W0 m ρ c) (Proc.devRef .tc main_v22) = _
  after_results_simp
  rfl

theorem first_wl (c : Dev nD) : V1 m ρ c main_v23 = Cert.Sage.tr (m ((c.tc : Thread nD τ).loc main_arg2)) := by
  show StableHlo.after hostOps0 (W0 m ρ c) (Proc.devRef .tc main_v23) = _
  after_results_simp
  rfl

theorem first_wr (c : Dev nD) : V1 m ρ c main_v24 = Cert.Sage.tr (m ((c.tc : Thread nD τ).loc main_arg4)) := by
  show StableHlo.after hostOps0 (W0 m ρ c) (Proc.devRef .tc main_v24) = _
  after_results_simp
  rfl

theorem first_bias (c : Dev nD) : Cert.Sage.rowVec (V1 m ρ c main_v25) = m ((c.tc : Thread nD τ).loc main_arg3) := by
  have e : V1 m ρ c main_v25 = shapeCast S1x128 (m ((c.tc : Thread nD τ).loc main_arg3)) shapeCasts_S128_S1x128 := by
    show StableHlo.after hostOps0 (W0 m ρ c) (Proc.devRef .tc main_v25) = _
    after_results_simp
    rfl
  rw [e]
  exact rowVec_cast _ _

/-- An argument as the first stretch leaves it. -/
theorem first_arg5 (c : Dev nD) : W1 m ρ c (Proc.devRef .tc main_arg5) = m ((c.tc : Thread nD τ).loc main_arg5) := by
  show StableHlo.after hostOps0 (W0 m ρ c) (Proc.devRef .tc main_arg5) = _
  after_results_simp
theorem first_arg6 (c : Dev nD) : W1 m ρ c (Proc.devRef .tc main_arg6) = m ((c.tc : Thread nD τ).loc main_arg6) := by
  show StableHlo.after hostOps0 (W0 m ρ c) (Proc.devRef .tc main_arg6) = _
  after_results_simp
theorem first_arg7 (c : Dev nD) : W1 m ρ c (Proc.devRef .tc main_arg7) = m ((c.tc : Thread nD τ).loc main_arg7) := by
  show StableHlo.after hostOps0 (W0 m ρ c) (Proc.devRef .tc main_arg7) = _
  after_results_simp

/-! ## Across the first launch: it writes its output array only -/

theorem mid_sources (c : Dev nD) :
    W2 m ρ c (Proc.devRef .tc main_v1) = Cert.Sage.sources (m ((c.tc : Thread nD τ).loc main_arg1)) :=
  (W2_of_ne m ρ c main_v1 (by decide)).trans (first_sources m ρ c)
theorem mid_dests (c : Dev nD) :
    W2 m ρ c (Proc.devRef .tc main_v3) = Cert.Sage.dests (m ((c.tc : Thread nD τ).loc main_arg1)) :=
  (W2_of_ne m ρ c main_v3 (by decide)).trans (first_dests m ρ c)
theorem mid_inDegree (c : Dev nD) :
    W2 m ρ c (Proc.devRef .tc main_v7) = Cert.Sage.inDegree (m ((c.tc : Thread nD τ).loc main_arg1)) :=
  (W2_of_ne m ρ c main_v7 (by decide)).trans (first_inDegree m ρ c)
theorem mid_arg5 (c : Dev nD) : W2 m ρ c (Proc.devRef .tc main_arg5) = m ((c.tc : Thread nD τ).loc main_arg5) :=
  (W2_of_ne m ρ c main_arg5 (by decide)).trans (first_arg5 m ρ c)
theorem mid_arg6 (c : Dev nD) : W2 m ρ c (Proc.devRef .tc main_arg6) = m ((c.tc : Thread nD τ).loc main_arg6) :=
  (W2_of_ne m ρ c main_arg6 (by decide)).trans (first_arg6 m ρ c)
theorem mid_arg7 (c : Dev nD) : W2 m ρ c (Proc.devRef .tc main_arg7) = m ((c.tc : Thread nD τ).loc main_arg7) :=
  (W2_of_ne m ρ c main_arg7 (by decide)).trans (first_arg7 m ρ c)
/-- The first launch's output array after the launch: what its write-backs leave. -/
theorem mid_hidden (c : Dev nD) : W2 m ρ c (Proc.devRef .tc main_v26) = (dat0 (V1 m ρ) c).arrAt 5 cfg0.N :=
  W2_arr m ρ c 5

/-! ## Before the second launch -/

theorem second_features (c : Dev nD) : V3 m ρ c main_v26 = (dat0 (V1 m ρ) c).arrAt 5 cfg0.N := by
  show StableHlo.after hostOps1 (W2 m ρ c) (Proc.devRef .tc main_v26) = _
  after_results_simp
  exact mid_hidden m ρ c

theorem second_mean (c : Dev nD) :
    V3 m ρ c main_v41
      = Cert.Sage.neighbourMean ((dat0 (V1 m ρ) c).arrAt 5 cfg0.N) (m ((c.tc : Thread nD τ).loc main_arg1)) := by
  show StableHlo.after hostOps1 (W2 m ρ c) (Proc.devRef .tc main_v41) = _
  after_results_simp
  rw [mid_sources m ρ c, mid_dests m ρ c, mid_inDegree m ρ c, mid_hidden m ρ c]
  rfl

theorem second_wl (c : Dev nD) : V3 m ρ c main_v42 = Cert.Sage.tr (m ((c.tc : Thread nD τ).loc main_arg5)) := by
  show StableHlo.after hostOps1 (W2 m ρ c) (Proc.devRef .tc main_v42) = _
  after_results_simp
  rw [mid_arg5 m ρ c]
  rfl

theorem second_wr (c : Dev nD) : V3 m ρ c main_v43 = Cert.Sage.tr (m ((c.tc : Thread nD τ).loc main_arg7)) := by
  show StableHlo.after hostOps1 (W2 m ρ c) (Proc.devRef .tc main_v43) = _
  after_results_simp
  rw [mid_arg7 m ρ c]
  rfl

theorem second_bias (c : Dev nD) : Cert.Sage.rowVec (V3 m ρ c main_v44) = m ((c.tc : Thread nD τ).loc main_arg6) := by
  have e : V3 m ρ c main_v44 = shapeCast S1x128 (m ((c.tc : Thread nD τ).loc main_arg6)) shapeCasts_S128_S1x128 := by
    show StableHlo.after hostOps1 (W2 m ρ c) (Proc.devRef .tc main_v44) = _
    after_results_simp
    rw [mid_arg6 m ρ c]
    rfl
  rw [e]
  exact rowVec_cast _ _

end Cert.KernelIdeal.HostFold

end
-- ==== Proof.RegionPayload.lean ====
/-
  The kernel body's stored value at one entry of its 2000×128 block, on the extended reals.

  The body loads two 2000×128 blocks x0, x1, two 128×128 matrices x2, x3 and a 1×128 row x4; the narrowing to sixteen
  bits and every cast to the same shape are the identity here; each of the two matrix products into a zero accumulator
  is, at (p, q), the plain sum over the contracted coordinate k of left(p, k) · right(k, q); the two products are
  added, then the row x4 broadcast down the rows. So the value at (p, q) is
      (Σ_k x0(p,k)·x2(k,q) + Σ_k x1(p,k)·x3(k,q)) + x4(0,q),
  and the first of the two kernels takes the maximum of that with zero.
-/
import proofs.«104796_j69793218560134_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.ValueIdx Cert.KernelIdeal Cert.KernelIdeal.Gen

/-! ## The operand indices of the product: the left operand is read at (row of the result, k), the right at (k, column of the result) -/

theorem lhs_row (i : S2000x128.Idx) (r : dot_S2000x128_S128x128_S2000x128_1_0_0_1_n_n.contr.Idx) : (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (r : dot_S2000x128_S128x128_S2000x128_1_0_0_1_n_n.contr.Idx) : (dot_S2000x128_S128x128_S2000x128_1_0_0_1_n_n.lhsIdx i r 1).val = (r ⟨0, by decide⟩).val :=
  dot_S2000x128_S128x128_S2000x128_1_0_0_1_n_n.lhsIdx_val_of_single rfl i r
theorem rhs_row (i : S2000x128.Idx) (r : dot_S2000x128_S128x128_S2000x128_1_0_0_1_n_n.contr.Idx) : (dot_S2000x128_S128x128_S2000x128_1_0_0_1_n_n.rhsIdx i r 0).val = (r ⟨0, by decide⟩).val :=
  dot_S2000x128_S128x128_S2000x128_1_0_0_1_n_n.rhsIdx_val_of_single rfl i r
theorem rhs_col (i : S2000x128.Idx) (r : dot_S2000x128_S128x128_S2000x128_1_0_0_1_n_n.contr.Idx) : (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The one matrix product of the body read at (p, q): into the zero accumulator it is the sum over k of
    x(p, k) · w(k, q). -/
theorem matmul_entry (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The 1×128 row broadcast down 2000 rows, read at (p, q), is the row at (0, q). -/
theorem bias_entry (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => by
    match a with
    | ⟨0, _⟩ => rfl
    | ⟨1, _⟩ => rfl)

/-- What both kernels share, at (p, q): the two products summed, plus the row. -/
theorem sum_entry (x0 x1 : FVec Ideal S2000x128 .bf16) (x2 x3 : FVec Ideal S128x128 .bf16) (x4 : FVec Ideal S1x128 .f32)
    (p : Fin 2000) (q : Fin 128) :
    addf (addf (matmul dot_S2000x128_S128x128_S2000x128_1_0_0_1_n_n none x0 x2 (constant (F := Ideal) S2000x128 .f32 0x00000000#32))
          (matmul dot_S2000x128_S128x128_S2000x128_1_0_0_1_n_n none x1 x3 (constant (F := Ideal) S2000x128 .f32 0x00000000#32)))
        (broadcastTo S2000x128 x4 broadcasts_S1x128_S2000x128) (ix2 p q)
      = ((∑ k : Fin 128, x0 (ix2 p k) * x2 (ix2 k q)) + ∑ k : Fin 128, x1 (ix2 p k) * x3 (ix2 k q)) + x4 (ix2 (0 : Fin 1) q) := by
  rw [addf_apply, addf_apply, matmul_entry, matmul_entry, bias_entry]

/-- The first kernel's stored value at (p, q). -/
theorem k0_pay1_entry (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = max (((∑ k : Fin 128, x0 (ix2 p k) * x2 (ix2 k q)) + ∑ k : Fin 128, x1 (ix2 p k) * x3 (ix2 k q)) + x4 (ix2 (0 : Fin 1) q)) 0 := by
  unfold k0_pay1
  simp only [shapeCast_self]
  rw [maximumf_apply, broadcast_apply]
  exact congrArg₂ max (sum_entry _ _ _ _ _ p q) Ideal.ofBits_zero_f32

/-- The second kernel's stored value at (p, q). -/
theorem k1_pay1_entry (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = ((∑ k : Fin 128, x0 (ix2 p k) * x2 (ix2 k q)) + ∑ k : Fin 128, x1 (ix2 p k) * x3 (ix2 k q)) + x4 (ix2 (0 : Fin 1) q) := by
  unfold k1_pay1
  simp only [shapeCast_self]
  exact sum_entry _ _ _ _ _ p q

end Cert.KernelIdeal.RegionValue

end
-- ==== Proof.RegionRows.lean ====
/-
  What the two launches share: the zero offsets of a whole-buffer access, and the row of the 100000×128 array that row p
  of block t is.
-/
import Mathlib.Data.Fin.VecNotation

namespace Cert.KernelIdeal.RegionValue

/-- The zero offsets of a whole-buffer access, however spelt. -/
theorem zero_offsets : (![0, 0] : Fin 2 → Nat) = fun _ => 0 := funext fun a =>
  match a with
  | ⟨0, _⟩ => rfl
  | ⟨1, _⟩ => rfl

/-- Row p of block t (of 50 blocks of 2000 rows) is row 2000·t + p of the array. -/
def rowAt (t : Nat) (ht : t < 50) (p : Fin 2000) : Fin 100000 := ⟨2000 * t + p.val, by have := p.isLt; omega⟩

theorem rowAt_val (t : Nat) (ht : t < 50) (p : Fin 2000) : (rowAt t ht p).val = 2000 * t + p.val := rfl

end Cert.KernelIdeal.RegionValue
-- ==== Proof.Region0Value.lean ====
/-
  The first launch's output array, as one function of the arrays the launch finds.

  The launch runs the body at 50 points; point t handles rows 2000·t … 2000·t + 1999 of the 100000×128 arrays. The two
  feature windows and the output window are the 2000×128 blocks at block index (t, 0); the two weight matrices and the
  bias row are whole arrays, at block index (0, 0) for every t. A block's entry (p, q) sits in its array at
  (block index · block size + p, …): row 2000·t + p for the feature and output blocks, the same (k, q) for the weights
  and the row. So what point t writes back, at (p, q), is
      max((Σ_k a(2000·t+p, k)·wl(k,q) + Σ_k h(2000·t+p, k)·wr(k,q)) + b(0,q), 0),
  block t of ONE function of the whole arrays; the 50 blocks cover every row (row r is in block r / 2000), so the
  array ends holding that function.
-/
import proofs.«104796_j69793218560134_1_alg».proof.Proof.Gen.KernelIdeal.Frame
import proofs.«104796_j69793218560134_1_alg».proof.Proof.RegionPayload
import proofs.«104796_j69793218560134_1_alg».proof.Proof.RegionRows
import proofs.«104796_j69793218560134_1_alg».proof.Proof.SageSpec

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The launch has 50 points. -/
theorem point_lt0 (t : Fin cfg0.N) : t.val < 50 := lt_of_lt_of_eq t.isLt N_0

/-- The index maps, decided over the grid: the feature and output windows are at block (t, 0), the weight
    matrices and the bias row at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's whole-array function at (r, q): the bias vector's entry q is the bias row's entry (0, q). -/
theorem relu_combine_entry (a h : Cert.Sage.FArr S100000x128) (wl wr : Cert.Sage.FArr S128x128) (b : Cert.Sage.FArr S1x128)
    (r : Fin 100000) (q : Fin 128) :
    Cert.LibDenseSpec.relu (N := 100000) (M := 128) (Cert.Sage.combine a h wl wr (Cert.Sage.rowVec b)) (ix2 r q)
      = max (((∑ k : Fin 128, a (ix2 r k) * wl (ix2 k q)) + ∑ k : Fin 128, h (ix2 r k) * wr (ix2 k q)) + b (ix2 (0 : Fin 1) q)) 0 := rfl

/-! ## Each block's entry, read where its array has it -/

/-- The first feature block's entry (p, k) is the array's entry (2000·t + p, k). -/
theorem feat_entry0_0 (c : Dev nD) (t : Fin cfg0.N) (p : Fin 2000) (k : Fin 128) :
    iblk0 V c 0 t (ix2 p k) = V c main_v22 (ix2 (rowAt t.val (point_lt0 t) p) k) := by
  obtain ⟨e0, e1, -⟩ := block_index0 t
  show V c main_v22 (((cfg0.win 0).blk t).view.emb (ix2 p k)) = _
  refine congrArg (V c main_v22) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- The second feature block's entry (p, k) is the array's entry (2000·t + p, k). -/
theorem feat_entry0_1 (c : Dev nD) (t : Fin cfg0.N) (p : Fin 2000) (k : Fin 128) :
    iblk0 V c 1 t (ix2 p k) = V c main_arg0 (ix2 (rowAt t.val (point_lt0 t) p) k) := by
  obtain ⟨-, -, e0, e1, -⟩ := block_index0 t
  show V c main_arg0 (((cfg0.win 1).blk t).view.emb (ix2 p k)) = _
  refine congrArg (V c main_arg0) (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

/-- The first weight matrix's window is the whole array: its block's entry (k, q) is the array's. -/
theorem weight_entry0_2 (c : Dev nD) (t : Fin cfg0.N) (k q : Fin 128) :
    iblk0 V c 2 t (ix2 k q) = V c main_v23 (ix2 k q) := by
  obtain ⟨-, -, -, -, e0, e1, -⟩ := block_index0 t
  show V c main_v23 (((cfg0.win 2).blk t).view.emb (ix2 k q)) = _
  refine congrArg (V c main_v23) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second weight matrix's window is the whole array: its block's entry (k, q) is the array's. -/
theorem weight_entry0_3 (c : Dev nD) (t : Fin cfg0.N) (k q : Fin 128) :
    iblk0 V c 3 t (ix2 k q) = V c main_v24 (ix2 k q) := by
  obtain ⟨-, -, -, -, -, -, e0, e1, -⟩ := block_index0 t
  show V c main_v24 (((cfg0.win 3).blk t).view.emb (ix2 k q)) = _
  refine congrArg (V c main_v24) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row's window is the whole array: its block's entry (0, q) is the array's. -/
theorem bias_row_entry0 (c : Dev nD) (t : Fin cfg0.N) (q : Fin 128) :
    iblk0 V c 4 t (ix2 (0 : Fin 1) q) = V c main_v25 (ix2 (0 : Fin 1) q) := by
  obtain ⟨-, -, -, -, -, -, -, -, e0, e1, -⟩ := block_index0 t
  show V c main_v25 (((cfg0.win 4).blk t).view.emb (ix2 (0 : Fin 1) q)) = _
  refine congrArg (V c main_v25) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * q.val = q.val; omega

/-- The output block's entry (p, q) sits in the array at (2000·t + p, q). -/
theorem out_position0 (t : Fin cfg0.N) (p : Fin 2000) (q : Fin 128) :
    ((cfg0.win 5).blk t).view.emb (ix2 p q) = ix2 (rowAt t.val (point_lt0 t) p) q := by
  obtain ⟨-, -, -, -, -, -, -, -, -, -, e0, e1⟩ := block_index0 t
  refine funext fun a => Fin.ext ?_
  match a with
  | ⟨0, _⟩ => show win0_5.index t (0 : Fin 2) * 2000 + 1 * p.val = 2000 * t.val + p.val; omega
  | ⟨1, _⟩ => show win0_5.index t (1 : Fin 2) * 128 + 1 * q.val = q.val; omega

/-! ## What a point writes back, and the array after the launch -/

/-- What point t writes back is block t of the layer's whole-array function of the arrays the launch finds. -/
theorem written_back0 (c : Dev nD) (t : Fin cfg0.N) :
    (dat0 (F := Ideal) V c).flushed 5 t
      = ((cfg0.win 5).blk t).view.read (Elt Ideal)
          (Cert.LibDenseSpec.relu (N := 100000) (M := 128)
            (Cert.Sage.combine (V c main_v22) (V c main_arg0) (V c main_v23) (V c main_v24) (Cert.Sage.rowVec (V c main_v25)))) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = (Cert.LibDenseSpec.relu (N := 100000) (M := 128)
          (Cert.Sage.combine (V c main_v22) (V c main_arg0) (V c main_v23) (V c main_v24) (Cert.Sage.rowVec (V c main_v25)))) (((cfg0.win 5).blk t).view.emb (ix2 p q))
  rw [out_position0 t p q]
  refine (k0_pay1_entry _ _ _ _ _ p q).trans (Eq.trans ?_ (relu_combine_entry _ _ _ _ _ _ q).symm)
  simp only [feat_entry0_0, feat_entry0_1, weight_entry0_2, weight_entry0_3, bias_row_entry0]

/-- An index of the array is in point t's block iff each coordinate is in the block's range on its axis. -/
theorem mem_block0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every index of the array is in some point's block: row r is in block r / 2000. -/
theorem rows_covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 2000 < cfg0.N := lt_of_lt_of_eq (show (i 0).val / 2000 < 50 by omega) N_0.symm
  obtain ⟨-, -, -, -, -, -, -, -, -, -, e0, e1⟩ := block_index0 ⟨(i 0).val / 2000, hN⟩
  have e0' : win0_5.index ⟨(i 0).val / 2000, hN⟩ (0 : Fin 2) = (i 0).val / 2000 := e0
  refine ⟨⟨(i 0).val / 2000, hN⟩, flush0_5 _, ?_⟩
  rw [mem_block0]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    omega

/-- The output array after the launch is the layer's whole-array function of the arrays the launch finds. -/
theorem region0_out (c : Dev nD) :
    (dat0 (F := Ideal) V c).arrAt 5 cfg0.N
      = Cert.LibDenseSpec.relu (N := 100000) (M := 128)
          (Cert.Sage.combine (V c main_v22) (V c main_arg0) (V c main_v23) (V c main_v24) (Cert.Sage.rowVec (V c main_v25))) :=
  (dat0 (F := Ideal) V c).arrAt_eq_of_cover 5 _ (fun t _ => written_back0 V c t) rows_covered0

end Cert.KernelIdeal.RegionValue

end
-- ==== Proof.Region1Value.lean ====
/-
  The second launch's output array, as one function of the arrays the launch finds.

  The launch runs the body at 50 points; point t handles rows 2000·t … 2000·t + 1999 of the 100000×128 arrays. The two
  feature windows and the output window are the 2000×128 blocks at block index (t, 0); the two weight matrices and the
  bias row are whole arrays, at block index (0, 0) for every t. A block's entry (p, q) sits in its array at
  (block index · block size + p, …): row 2000·t + p for the feature and output blocks, the same (k, q) for the weights
  and the row. So what point t writes back, at (p, q), is
      (Σ_k a(2000·t+p, k)·wl(k,q) + Σ_k h(2000·t+p, k)·wr(k,q)) + b(0,q),
  block t of ONE function of the whole arrays; the 50 blocks cover every row (row r is in block r / 2000), so the
  array ends holding that function.
-/
import proofs.«104796_j69793218560134_1_alg».proof.Proof.Gen.KernelIdeal.Frame
import proofs.«104796_j69793218560134_1_alg».proof.Proof.RegionPayload
import proofs.«104796_j69793218560134_1_alg».proof.Proof.RegionRows
import proofs.«104796_j69793218560134_1_alg».proof.Proof.SageSpec

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The launch has 50 points. -/
theorem point_lt1 (t : Fin cfg1.N) : t.val < 50 := lt_of_lt_of_eq t.isLt N_1

/-- The index maps, decided over the grid: the feature and output windows are at block (t, 0), the weight
    matrices and the bias row at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer's whole-array function at (r, q): the bias vector's entry q is the bias row's entry (0, q). -/
theorem combine_entry (a h : Cert.Sage.FArr S100000x128) (wl wr : Cert.Sage.FArr S128x128) (b : Cert.Sage.FArr S1x128)
    (r : Fin 100000) (q : Fin 128) :
    Cert.Sage.combine a h wl wr (Cert.Sage.rowVec b) (ix2 r q)
      = ((∑ k : Fin 128, a (ix2 r k) * wl (ix2 k q)) + ∑ k : Fin 128, h (ix2 r k) * wr (ix2 k q)) + b (ix2 (0 : Fin 1) q) := rfl

/-! ## Each block's entry, read where its array has it -/

/-- The first feature block's entry (p, k) is the array's entry (2000·t + p, k). -/
theorem feat_entry1_0 (c : Dev nD) (t : Fin cfg1.N) (p : Fin 2000) (k : Fin 128) :
    iblk1 V c 0 t (ix2 p k) = V c main_v41 (ix2 (rowAt t.val (point_lt1 t) p) k) := by
  obtain ⟨e0, e1, -⟩ := block_index1 t
  show V c main_v41 (((cfg1.win 0).blk t).view.emb (ix2 p k)) = _
  refine congrArg (V c main_v41) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- The second feature block's entry (p, k) is the array's entry (2000·t + p, k). -/
theorem feat_entry1_1 (c : Dev nD) (t : Fin cfg1.N) (p : Fin 2000) (k : Fin 128) :
    iblk1 V c 1 t (ix2 p k) = V c main_v26 (ix2 (rowAt t.val (point_lt1 t) p) k) := by
  obtain ⟨-, -, e0, e1, -⟩ := block_index1 t
  show V c main_v26 (((cfg1.win 1).blk t).view.emb (ix2 p k)) = _
  refine congrArg (V c main_v26) (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- The first weight matrix's window is the whole array: its block's entry (k, q) is the array's. -/
theorem weight_entry1_2 (c : Dev nD) (t : Fin cfg1.N) (k q : Fin 128) :
    iblk1 V c 2 t (ix2 k q) = V c main_v42 (ix2 k q) := by
  obtain ⟨-, -, -, -, e0, e1, -⟩ := block_index1 t
  show V c main_v42 (((cfg1.win 2).blk t).view.emb (ix2 k q)) = _
  refine congrArg (V c main_v42) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second weight matrix's window is the whole array: its block's entry (k, q) is the array's. -/
theorem weight_entry1_3 (c : Dev nD) (t : Fin cfg1.N) (k q : Fin 128) :
    iblk1 V c 3 t (ix2 k q) = V c main_v43 (ix2 k q) := by
  obtain ⟨-, -, -, -, -, -, e0, e1, -⟩ := block_index1 t
  show V c main_v43 (((cfg1.win 3).blk t).view.emb (ix2 k q)) = _
  refine congrArg (V c main_v43) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's window is the whole array: its block's entry (0, q) is the array's. -/
theorem bias_row_entry1 (c : Dev nD) (t : Fin cfg1.N) (q : Fin 128) :
    iblk1 V c 4 t (ix2 (0 : Fin 1) q) = V c main_v44 (ix2 (0 : Fin 1) q) := by
  obtain ⟨-, -, -, -, -, -, -, -, e0, e1, -⟩ := block_index1 t
  show V c main_v44 (((cfg1.win 4).blk t).view.emb (ix2 (0 : Fin 1) q)) = _
  refine congrArg (V c main_v44) (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- The output block's entry (p, q) sits in the array at (2000·t + p, q). -/
theorem out_position1 (t : Fin cfg1.N) (p : Fin 2000) (q : Fin 128) :
    ((cfg1.win 5).blk t).view.emb (ix2 p q) = ix2 (rowAt t.val (point_lt1 t) p) q := by
  obtain ⟨-, -, -, -, -, -, -, -, -, -, e0, e1⟩ := block_index1 t
  refine funext fun a => Fin.ext ?_
  match a with
  | ⟨0, _⟩ => show win1_5.index t (0 : Fin 2) * 2000 + 1 * p.val = 2000 * t.val + p.val; omega
  | ⟨1, _⟩ => show win1_5.index t (1 : Fin 2) * 128 + 1 * q.val = q.val; omega

/-! ## What a point writes back, and the array after the launch -/

/-- What point t writes back is block t of the layer's whole-array function of the arrays the launch finds. -/
theorem written_back1 (c : Dev nD) (t : Fin cfg1.N) :
    (dat1 (F := Ideal) V c).flushed 5 t
      = ((cfg1.win 5).blk t).view.read (Elt Ideal)
          (Cert.Sage.combine (V c main_v41) (V c main_v26) (V c main_v42) (V c main_v43) (Cert.Sage.rowVec (V c main_v44))) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = (Cert.Sage.combine (V c main_v41) (V c main_v26) (V c main_v42) (V c main_v43) (Cert.Sage.rowVec (V c main_v44))) (((cfg1.win 5).blk t).view.emb (ix2 p q))
  rw [out_position1 t p q]
  refine (k1_pay1_entry _ _ _ _ _ p q).trans (Eq.trans ?_ (combine_entry _ _ _ _ _ _ q).symm)
  simp only [feat_entry1_0, feat_entry1_1, weight_entry1_2, weight_entry1_3, bias_row_entry1]

/-- An index of the array is in point t's block iff each coordinate is in the block's range on its axis. -/
theorem mem_block1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Every index of the array is in some point's block: row r is in block r / 2000. -/
theorem rows_covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 2000 < cfg1.N := lt_of_lt_of_eq (show (i 0).val / 2000 < 50 by omega) N_1.symm
  obtain ⟨-, -, -, -, -, -, -, -, -, -, e0, e1⟩ := block_index1 ⟨(i 0).val / 2000, hN⟩
  have e0' : win1_5.index ⟨(i 0).val / 2000, hN⟩ (0 : Fin 2) = (i 0).val / 2000 := e0
  refine ⟨⟨(i 0).val / 2000, hN⟩, flush1_5 _, ?_⟩
  rw [mem_block1]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    omega

/-- The output array after the launch is the layer's whole-array function of the arrays the launch finds. -/
theorem region1_out (c : Dev nD) :
    (dat1 (F := Ideal) V c).arrAt 5 cfg1.N
      = Cert.Sage.combine (V c main_v41) (V c main_v26) (V c main_v42) (V c main_v43) (Cert.Sage.rowVec (V c main_v44)) :=
  (dat1 (F := Ideal) V c).arrAt_eq_of_cover 5 _ (fun t _ => written_back1 V c t) rows_covered1

end Cert.KernelIdeal.RegionValue

end
-- ==== Proof.RegionValue.lean ====
/-
  The two launches' output arrays, each as one whole-array function of the arrays its launch finds: region0_out (the
  first layer, with the maximum with zero) and region1_out (the second layer), in Cert.KernelIdeal.RegionValue.
-/
import proofs.«104796_j69793218560134_1_alg».proof.Proof.Region0Value
import proofs.«104796_j69793218560134_1_alg».proof.Proof.Region1Value
-- ==== Proof.KernelValue.lean ====
/-
  The idealized kernel program's result as the specification's network of the argument arrays.

  The result buffer at the end of the run is the second launch's output array after its write-backs. A launch's output array
  is one layer's whole-array function of the five arrays its windows read, as the launch finds them; what the second launch
  finds is read off the host operations between the launches (the neighbour mean of the first launch's output, that output
  itself, the second layer's transposed weights and bias row), and the first launch's output is in turn the first layer's
  function of what the first stretch of host operations leaves. Substituting one into the other is the network.
-/
import proofs.«104796_j69793218560134_1_alg».proof.Proof.HostStages
import proofs.«104796_j69793218560134_1_alg».proof.Proof.RegionValue

noncomputable section

namespace Cert.KernelIdeal.HostFold

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The result buffer at the last boundary is the specification's network of the argument arrays. -/
theorem result (c : Dev nD) :
    W4 m ρ c (Proc.devRef .tc main_v45)
      = Cert.Sage.sage (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 5).trans ?_
  rw [Cert.KernelIdeal.RegionValue.region1_out (V3 m ρ) c]
  rw [second_mean m ρ c, second_features m ρ c, second_wl m ρ c, second_wr m ρ c, second_bias m ρ c]
  rw [Cert.KernelIdeal.RegionValue.region0_out (V1 m ρ) c]
  rw [first_mean m ρ c, first_features m ρ c, first_wl m ρ c, first_wr m ρ c, first_bias m ρ c]
  rfl

end Cert.KernelIdeal.HostFold

end
-- ==== Proof.RefValue.lean ====
/-
  The reference program computes the specification.

  Its two neighbour means and its four transposed weight matrices are, term for term, the compositions of host
  operations by which the specification defines the neighbour mean and the transpose, so they are identified without
  opening a gather or a scatter-addition. What remains is one entry of a layer: the reference computes
      ((Σ_k a(p,k)·wl(k,q)) + b(q)) + Σ_k h(p,k)·wr(k,q),
  the specification
      ((Σ_k a(p,k)·wl(k,q)) + Σ_k h(p,k)·wr(k,q)) + b(q),
  and the two agree because addition on the extended reals is commutative and associative (no finiteness is used).
  The first layer's maximum is taken against the zero word, which is 0.
-/
import proofs.«104796_j69793218560134_1_alg».proof.Proof.Gen.KernelIdeal
import proofs.«104796_j69793218560134_1_alg».proof.Proof.Gen.ReferenceIdeal.Read
import proofs.«104796_j69793218560134_1_alg».proof.Proof.SageSpec

noncomputable section

namespace Cert.ReferenceIdeal.RefValue
open Idealize.ShloMosaic Idealize.ShloMosaic.ValueIdx Cert.ReferenceIdeal Cert.ReferenceIdeal.Read

/-! The four transposed weight matrices are the specification's transpose. -/
theorem tr_v23 (w : Cert.Sage.FArr Cert.KernelIdeal.S128x128) : val_main_v23 (F := Ideal) w = Cert.Sage.tr w := rfl
theorem tr_v28 (w : Cert.Sage.FArr Cert.KernelIdeal.S128x128) : val_main_v28 (F := Ideal) w = Cert.Sage.tr w := rfl
theorem tr_v55 (w : Cert.Sage.FArr Cert.KernelIdeal.S128x128) : val_main_v55 (F := Ideal) w = Cert.Sage.tr w := rfl
theorem tr_v60 (w : Cert.Sage.FArr Cert.KernelIdeal.S128x128) : val_main_v60 (F := Ideal) w = Cert.Sage.tr w := rfl

/-- The first neighbour mean: the same composition of host operations as the specification's, over any features. -/
theorem mean_v22 (h : Cert.Sage.FArr Cert.KernelIdeal.S100000x128) (x1 : Cert.Sage.IArr Cert.KernelIdeal.S2x1600000) :
    val_main_v22 (F := Ideal) h x1 = Cert.Sage.neighbourMean h x1 := by
  unfold val_main_v22 val_main_v13 val_main_v21 val_main_v20 val_main_v19 val_main_v17 val_main_v18 val_main_v16 val_main_v15 val_main_v14
    val_main_v12 val_main_v11 val_main_v10 val_main_v9 val_main_v8 val_main_v7 val_main_v6 val_main_v5 val_main_v4 val_main_v3 val_main_v2 val_main_v1 val_main_v0
    val_main_c val_main_c_0 val_main_cst val_main_cst_1 val_main_cst_2 val_main_cst_3
  unfold Cert.Sage.neighbourMean Cert.Sage.meanWith Cert.Sage.neighbourSum Cert.Sage.divisor Cert.Sage.inDegree Cert.Sage.wrap Cert.Sage.sources Cert.Sage.dests
  rfl

/-- The second neighbour mean, of the first layer's value (kept as one term, never opened). -/
theorem mean_v54 (x0 : Cert.Sage.FArr Cert.KernelIdeal.S100000x128) (x1 : Cert.Sage.IArr Cert.KernelIdeal.S2x1600000)
    (x2 : Cert.Sage.FArr Cert.KernelIdeal.S128x128) (x3 : Cert.Sage.FArr Cert.KernelIdeal.S128) (x4 : Cert.Sage.FArr Cert.KernelIdeal.S128x128) :
    val_main_v54 (F := Ideal) x0 x1 x2 x3 x4 = Cert.Sage.neighbourMean (val_main_v31 (F := Ideal) x0 x1 x2 x3 x4) x1 := by
  unfold val_main_v54 val_main_v45 val_main_v53 val_main_v52 val_main_v51 val_main_v49 val_main_v50 val_main_v48 val_main_v47 val_main_v46
    val_main_v44 val_main_v43 val_main_v42 val_main_v41 val_main_v40 val_main_v39 val_main_v38 val_main_v37 val_main_v36 val_main_v35 val_main_v34 val_main_v33 val_main_v32
    val_main_c_4 val_main_c_5 val_main_cst_6 val_main_cst_7 val_main_cst_8 val_main_cst_9
  generalize val_main_v31 (F := Ideal) x0 x1 x2 x3 x4 = h
  unfold Cert.Sage.neighbourMean Cert.Sage.meanWith Cert.Sage.neighbourSum Cert.Sage.divisor Cert.Sage.inDegree Cert.Sage.wrap Cert.Sage.sources Cert.Sage.dests
  rfl

/-! The index functions of the four products and the two bias broadcasts, at a literal index. -/
theorem lidx_v24 (p : Fin 100000) (q k : Fin 128) : lidx_main_v24 (ix2 p q) k = ix2 p k :=
  funext fun a => Fin.ext (by match a with | ⟨0, _⟩ => rfl | ⟨1, _⟩ => rfl)
theorem ridx_v24 (p : Fin 100000) (q k : Fin 128) : ridx_main_v24 (ix2 p q) k = ix2 k q :=
  funext fun a => Fin.ext (by match a with | ⟨0, _⟩ => rfl | ⟨1, _⟩ => rfl)
theorem lidx_v29 (p : Fin 100000) (q k : Fin 128) : lidx_main_v29 (ix2 p q) k = ix2 p k :=
  funext fun a => Fin.ext (by match a with | ⟨0, _⟩ => rfl | ⟨1, _⟩ => rfl)
theorem ridx_v29 (p : Fin 100000) (q k : Fin 128) : ridx_main_v29 (ix2 p q) k = ix2 k q :=
  funext fun a => Fin.ext (by match a with | ⟨0, _⟩ => rfl | ⟨1, _⟩ => rfl)
theorem lidx_v56 (p : Fin 100000) (q k : Fin 128) : lidx_main_v56 (ix2 p q) k = ix2 p k :=
  funext fun a => Fin.ext (by match a with | ⟨0, _⟩ => rfl | ⟨1, _⟩ => rfl)
theorem ridx_v56 (p : Fin 100000) (q k : Fin 128) : ridx_main_v56 (ix2 p q) k = ix2 k q :=
  funext fun a => Fin.ext (by match a with | ⟨0, _⟩ => rfl | ⟨1, _⟩ => rfl)
theorem lidx_v61 (p : Fin 100000) (q k : Fin 128) : lidx_main_v61 (ix2 p q) k = ix2 p k :=
  funext fun a => Fin.ext (by match a with | ⟨0, _⟩ => rfl | ⟨1, _⟩ => rfl)
theorem ridx_v61 (p : Fin 100000) (q k : Fin 128) : ridx_main_v61 (ix2 p q) k = ix2 k q :=
  funext fun a => Fin.ext (by match a with | ⟨0, _⟩ => rfl | ⟨1, _⟩ => rfl)
theorem bias_v26 (p : Fin 100000) (q : Fin 128) : idx_main_v25 (idx_main_v26 (ix2 p q)) = ix1 q :=
  funext fun a => Fin.ext (by match a with | ⟨0, _⟩ => rfl)
theorem bias_v58 (p : Fin 100000) (q : Fin 128) : idx_main_v57 (idx_main_v58 (ix2 p q)) = ix1 q :=
  funext fun a => Fin.ext (by match a with | ⟨0, _⟩ => rfl)

/-! The four products at (p, q), as sums over the contracted coordinate of the specification's operands. -/
theorem v24_at (x0 : Cert.Sage.FArr Cert.KernelIdeal.S100000x128) (x1 : Cert.Sage.IArr Cert.KernelIdeal.S2x1600000)
    (x2 : Cert.Sage.FArr Cert.KernelIdeal.S128x128) (p : Fin 100000) (q : Fin 128) :
    val_main_v24 (F := Ideal) x0 x1 x2 (ix2 p q)
      = ∑ k : Fin 128, Cert.Sage.neighbourMean x0 x1 (ix2 p k) * Cert.Sage.tr x2 (ix2 k q) := by
  rw [val_main_v24_apply, mean_v22, tr_v23]
  exact Finset.sum_congr rfl fun k _ => by rw [lidx_v24, ridx_v24]

theorem v29_at (x0 : Cert.Sage.FArr Cert.KernelIdeal.S100000x128) (x4 : Cert.Sage.FArr Cert.KernelIdeal.S128x128)
    (p : Fin 100000) (q : Fin 128) :
    val_main_v29 (F := Ideal) x0 x4 (ix2 p q) = ∑ k : Fin 128, x0 (ix2 p k) * Cert.Sage.tr x4 (ix2 k q) := by
  rw [val_main_v29_apply, tr_v28]
  exact Finset.sum_congr rfl fun k _ => by rw [lidx_v29, ridx_v29]

theorem v56_at (x0 : Cert.Sage.FArr Cert.KernelIdeal.S100000x128) (x1 : Cert.Sage.IArr Cert.KernelIdeal.S2x1600000)
    (x2 : Cert.Sage.FArr Cert.KernelIdeal.S128x128) (x3 : Cert.Sage.FArr Cert.KernelIdeal.S128) (x4 : Cert.Sage.FArr Cert.KernelIdeal.S128x128)
    (x5 : Cert.Sage.FArr Cert.KernelIdeal.S128x128) (p : Fin 100000) (q : Fin 128) :
    val_main_v56 (F := Ideal) x0 x1 x2 x3 x4 x5 (ix2 p q)
      = ∑ k : Fin 128, Cert.Sage.neighbourMean (val_main_v31 (F := Ideal) x0 x1 x2 x3 x4) x1 (ix2 p k) * Cert.Sage.tr x5 (ix2 k q) := by
  rw [val_main_v56_apply, mean_v54, tr_v55]
  exact Finset.sum_congr rfl fun k _ => by rw [lidx_v56, ridx_v56]

theorem v61_at (x0 : Cert.Sage.FArr Cert.KernelIdeal.S100000x128) (x1 : Cert.Sage.IArr Cert.KernelIdeal.S2x1600000)
    (x2 : Cert.Sage.FArr Cert.KernelIdeal.S128x128) (x3 : Cert.Sage.FArr Cert.KernelIdeal.S128) (x4 : Cert.Sage.FArr Cert.KernelIdeal.S128x128)
    (x7 : Cert.Sage.FArr Cert.KernelIdeal.S128x128) (p : Fin 100000) (q : Fin 128) :
    val_main_v61 (F := Ideal) x0 x1 x2 x3 x4 x7 (ix2 p q)
      = ∑ k : Fin 128, val_main_v31 (F := Ideal) x0 x1 x2 x3 x4 (ix2 p k) * Cert.Sage.tr x7 (ix2 k q) := by
  rw [val_main_v61_apply, tr_v60]
  exact Finset.sum_congr rfl fun k _ => by rw [lidx_v61, ridx_v61]

/-- The first layer. The reference adds the bias before the second product, the specification after it. -/
theorem layer1_eq (x0 : Cert.Sage.FArr Cert.KernelIdeal.S100000x128) (x1 : Cert.Sage.IArr Cert.KernelIdeal.S2x1600000)
    (x2 : Cert.Sage.FArr Cert.KernelIdeal.S128x128) (x3 : Cert.Sage.FArr Cert.KernelIdeal.S128) (x4 : Cert.Sage.FArr Cert.KernelIdeal.S128x128) :
    val_main_v31 (F := Ideal) x0 x1 x2 x3 x4 = Cert.Sage.layer1 x0 x1 x2 x3 x4 := by
  funext i
  obtain ⟨p, q, rfl⟩ : ∃ (p : Fin 100000) (q : Fin 128), i = ix2 p q := ⟨i 0, i 1, eq_ix2 i⟩
  rw [val_main_v31_apply, val_main_v30_apply, val_main_v27_apply, v24_at, v29_at,
    val_main_v26_apply, val_main_v25_apply, bias_v26, val_main_call0_v0_apply, val_main_call0_cst_apply]
  unfold Cert.Sage.layer1 Cert.Sage.combine
  rw [Cert.LibDenseSpec.relu_apply, Cert.LibDenseSpec.dense2_apply]
  rw [Ideal.maximumf_def, Ideal.addf_def, Ideal.addf_def, Ideal.ofBits_def, Ideal.ofBits_zero_f32, add_right_comm]

/-- The second layer, over the first layer's value as the reference computes it. -/
theorem layer2_eq (x0 : Cert.Sage.FArr Cert.KernelIdeal.S100000x128) (x1 : Cert.Sage.IArr Cert.KernelIdeal.S2x1600000)
    (x2 : Cert.Sage.FArr Cert.KernelIdeal.S128x128) (x3 : Cert.Sage.FArr Cert.KernelIdeal.S128) (x4 : Cert.Sage.FArr Cert.KernelIdeal.S128x128)
    (x5 : Cert.Sage.FArr Cert.KernelIdeal.S128x128) (x6 : Cert.Sage.FArr Cert.KernelIdeal.S128) (x7 : Cert.Sage.FArr Cert.KernelIdeal.S128x128) :
    val_main_v62 (F := Ideal) x0 x1 x2 x3 x4 x5 x6 x7
      = Cert.Sage.layer2 (val_main_v31 (F := Ideal) x0 x1 x2 x3 x4) x1 x5 x6 x7 := by
  funext i
  obtain ⟨p, q, rfl⟩ : ∃ (p : Fin 100000) (q : Fin 128), i = ix2 p q := ⟨i 0, i 1, eq_ix2 i⟩
  rw [val_main_v62_apply, val_main_v59_apply, v56_at, v61_at, val_main_v58_apply, val_main_v57_apply, bias_v58]
  unfold Cert.Sage.layer2 Cert.Sage.combine
  rw [Cert.LibDenseSpec.dense2_apply, Ideal.addf_def, Ideal.addf_def, add_right_comm]

/-- The reference program's result is the specification of its arguments. -/
theorem ref_is_sage (x0 : Cert.Sage.FArr Cert.KernelIdeal.S100000x128) (x1 : Cert.Sage.IArr Cert.KernelIdeal.S2x1600000)
    (x2 : Cert.Sage.FArr Cert.KernelIdeal.S128x128) (x3 : Cert.Sage.FArr Cert.KernelIdeal.S128) (x4 : Cert.Sage.FArr Cert.KernelIdeal.S128x128)
    (x5 : Cert.Sage.FArr Cert.KernelIdeal.S128x128) (x6 : Cert.Sage.FArr Cert.KernelIdeal.S128) (x7 : Cert.Sage.FArr Cert.KernelIdeal.S128x128) :
    Cert.ReferenceIdeal.Read.val_main_v62 (F := Ideal) x0 x1 x2 x3 x4 x5 x6 x7 = Cert.Sage.sage x0 x1 x2 x3 x4 x5 x6 x7 := by
  unfold Cert.Sage.sage
  rw [← layer1_eq]
  exact layer2_eq x0 x1 x2 x3 x4 x5 x6 x7

end Cert.ReferenceIdeal.RefValue
end
-- ==== Proof.lean ====
/-
  Two layers of a mean-aggregating graph convolution over 100000 nodes and 1600000 edges: the kernel program against its
  plain reference, equal at the ideal instance.

  Both programs compute, per layer, the neighbour mean a of the node features h (a gather of source rows, a scatter-addition
  into destination rows, a division by max(in-degree, 1)) with the same host operations, and then, at node p and output
  feature q, the three summands Σ_k a(p,k)·Wl(q,k), Σ_k h(p,k)·Wr(q,k) and b(q); the first layer ends with the maximum with
  zero. The kernel program takes the two products in a tiled kernel — 50 blocks of 2000 rows, operands cast to a narrower
  float format (the identity on extended reals), each product accumulated from zero — and adds the bias last; the
  reference takes two whole products and adds the bias between them. On the extended reals addition is commutative and
  associative with no side condition, so the two orders agree at every input: the precondition is never opened.

  The specification (SageSpec) states the network once. The kernel program's result is the specification's (KernelRun: the
  run with the result buffer named; RegionValue: a launch's output array as one layer's function of the arrays its windows
  read; HostStages, KernelValue: what the host operations leave for each launch, substituted). The reference's result is
  the specification's (RefValue: its run read one operation at a time, the neighbour mean never opened). The kernel program
  as printed and its idealization differ by no rewrite, so the third claim is trivial; the three frames are the programs'
  runs with the results dropped.
-/
import proofs.«104796_j69793218560134_1_alg».proof.Defs
import proofs.«104796_j69793218560134_1_alg».proof.Proof.Gen.Kernel
import proofs.«104796_j69793218560134_1_alg».proof.Proof.Gen.Kernel.Skeleton
import proofs.«104796_j69793218560134_1_alg».proof.Proof.Gen.Kernel.Launch
import proofs.«104796_j69793218560134_1_alg».proof.Proof.Gen.Kernel.Points
import proofs.«104796_j69793218560134_1_alg».proof.Proof.Gen.Kernel.Frame
import proofs.«104796_j69793218560134_1_alg».proof.Proof.Gen.KernelIdeal
import proofs.«104796_j69793218560134_1_alg».proof.Proof.Gen.KernelIdeal.Skeleton
import proofs.«104796_j69793218560134_1_alg».proof.Proof.Gen.KernelIdeal.Launch
import proofs.«104796_j69793218560134_1_alg».proof.Proof.Gen.KernelIdeal.Points
import proofs.«104796_j69793218560134_1_alg».proof.Proof.Gen.KernelIdeal.Frame
import proofs.«104796_j69793218560134_1_alg».proof.Proof.Gen.ReferenceIdeal
import proofs.«104796_j69793218560134_1_alg».proof.Proof.Gen.Pre_finite_inputs
import proofs.«104796_j69793218560134_1_alg».proof.Proof.Gen.ReferenceIdeal.Run
import proofs.«104796_j69793218560134_1_alg».proof.Proof.Gen.ReferenceIdeal.Read
import proofs.«104796_j69793218560134_1_alg».proof.Proof.SageSpec
import proofs.«104796_j69793218560134_1_alg».proof.Proof.KernelRun
import proofs.«104796_j69793218560134_1_alg».proof.Proof.KernelValue
import proofs.«104796_j69793218560134_1_alg».proof.Proof.RefValue
import Idealize.ShloMosaic.Adequacy
import Idealize.ShloMosaic.Init

noncomputable section

namespace Cert.Proof

open Idealize.ShloMosaic Idealize.SL.Sem

/-- From memories agreeing on the arguments both idealized programs run, and both end with the result buffer at the
    specification's network of the arguments: the kernel program by its run and the value of its last boundary, the reference
    by its run read back. -/
theorem algebraic : Cert.algebraic_KernelIdeal_ReferenceIdeal := by
  intro m ρ m' ρ' _ hagree
  refine ⟨fun c => Cert.Sage.sage (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostFold.result m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v62_eq, Cert.ReferenceIdeal.RefValue.ref_is_sage,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
